-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x200x48 : Shape := ⟨4, ![1024, 1, 200, 48]⟩
abbrev S1024x3x200x48 : Shape := ⟨4, ![1024, 3, 200, 48]⟩
abbrev S_ : Shape := ⟨0, ![]⟩

class Facts : Prop where
  bcast_S_S1024x1x200x48 : S_.BroadcastsInDim S1024x1x200x48 (![] : Fin 0 → Fin S1024x1x200x48.rank)
  reducesTo_S1024x1x200x48_S_d0_1_2_3 : S1024x1x200x48.ReducesTo [0, 1, 2, 3] S_
  h_S_ : 0 < S_.numel
  bcast_S_S1024x3x200x48 : S_.BroadcastsInDim S1024x3x200x48 (![] : Fin 0 → Fin S1024x3x200x48.rank)
  reducesTo_S1024x3x200x48_S_d0_1_2_3 : S1024x3x200x48.ReducesTo [0, 1, 2, 3] S_

variable [Facts]

def fn {F : FTy → Type} [FloatOps F] (main_arg0 : FVec F S1024x1x200x48 .f32) (main_arg1 : FVec F S1024x3x200x48 .f32) (main_arg2 : FVec F S1024x1x200x48 .f32) : IVec S_ 1 :=
  let main_v0 : FVec F S1024x1x200x48 .f32 := Host.absf main_arg0
  let main_cst : FVec F S_ .f32 := constant S_ .f32 0x7F800000#32
  let main_v1 : FVec F S1024x1x200x48 .f32 := broadcastInDim S1024x1x200x48 ![] bcast_S_S1024x1x200x48 main_cst
  let main_v2 : IVec S1024x1x200x48 1 := cmpf .olt main_v0 main_v1
  let main_c : IVec S_ 1 := constantI S_ 1 1#1
  let main_v3 : IVec S_ 1 := (fun x v => Host.reduce IntOp.andi x v reducesTo_S1024x1x200x48_S_d0_1_2_3 h_S_) main_v2 main_c
  let main_v4 : FVec F S1024x3x200x48 .f32 := Host.absf main_arg1
  let main_cst_0 : FVec F S_ .f32 := constant S_ .f32 0x7F800000#32
  let main_v5 : FVec F S1024x3x200x48 .f32 := broadcastInDim S1024x3x200x48 ![] bcast_S_S1024x3x200x48 main_cst_0
  let main_v6 : IVec S1024x3x200x48 1 := cmpf .olt main_v4 main_v5
  let main_c_1 : IVec S_ 1 := constantI S_ 1 1#1
  let main_v7 : IVec S_ 1 := (fun x v => Host.reduce IntOp.andi x v reducesTo_S1024x3x200x48_S_d0_1_2_3 h_S_) main_v6 main_c_1
  let main_v8 : IVec S_ 1 := andi main_v3 main_v7
  let main_v9 : FVec F S1024x1x200x48 .f32 := Host.absf main_arg2
  let main_cst_2 : FVec F S_ .f32 := constant S_ .f32 0x7F800000#32
  let main_v10 : FVec F S1024x1x200x48 .f32 := broadcastInDim S1024x1x200x48 ![] bcast_S_S1024x1x200x48 main_cst_2
  let main_v11 : IVec S1024x1x200x48 1 := cmpf .olt main_v9 main_v10
  let main_c_3 : IVec S_ 1 := constantI S_ 1 1#1
  let main_v12 : IVec S_ 1 := (fun x v => Host.reduce IntOp.andi x v reducesTo_S1024x1x200x48_S_d0_1_2_3 h_S_) main_v11 main_c_3
  let main_v13 : IVec S_ 1 := andi main_v8 main_v12
  main_v13
-- ==== Kernel.lean ====
abbrev S1024x1x200x48 : Shape := ⟨4, ![1024, 1, 200, 48]⟩
abbrev S1024x3x200x48 : Shape := ⟨4, ![1024, 3, 200, 48]⟩
abbrev S1024x200x48 : Shape := ⟨3, ![1024, 200, 48]⟩
abbrev S_ : Shape := ⟨0, ![]⟩
abbrev S1024x9600 : Shape := ⟨2, ![1024, 9600]⟩
abbrev S1024x9600x1 : Shape := ⟨3, ![1024, 9600, 1]⟩
abbrev S1 : Shape := ⟨1, ![1]⟩
abbrev S1x1x1 : Shape := ⟨3, ![1, 1, 1]⟩
abbrev S1x1 : Shape := ⟨2, ![1, 1]⟩
abbrev S64x9600 : Shape := ⟨2, ![64, 9600]⟩
abbrev S64 : Shape := ⟨1, ![64]⟩
abbrev S64x1 : Shape := ⟨2, ![64, 1]⟩

abbrev nBuf : Space → Nat
  | .hbm => 106
  | .vmem => 8
  | .smem => 0
  | _ => 0

abbrev bufTy : (tb : Table) → Fin (tcTables nBuf tb) → BufTy
  | .hbm, ⟨0, _⟩ => ⟨S1024x1x200x48, .f32⟩
  | .hbm, ⟨1, _⟩ => ⟨S1024x3x200x48, .f32⟩
  | .hbm, ⟨2, _⟩ => ⟨S1024x1x200x48, .f32⟩
  | .hbm, ⟨3, _⟩ => ⟨S1024x1x200x48, .f32⟩
  | .hbm, ⟨4, _⟩ => ⟨S1024x200x48, .f32⟩
  | .hbm, ⟨5, _⟩ => ⟨S1024x200x48, .i32⟩
  | .hbm, ⟨6, _⟩ => ⟨S1024x1x200x48, .f32⟩
  | .hbm, ⟨7, _⟩ => ⟨S1024x200x48, .f32⟩
  | .hbm, ⟨8, _⟩ => ⟨S1024x200x48, .i32⟩
  | .hbm, ⟨9, _⟩ => ⟨S_, .i32⟩
  | .hbm, ⟨10, _⟩ => ⟨S1024x200x48, .i32⟩
  | .hbm, ⟨11, _⟩ => ⟨S1024x200x48, .i1⟩
  | .hbm, ⟨12, _⟩ => ⟨S_, .i32⟩
  | .hbm, ⟨13, _⟩ => ⟨S1024x200x48, .i32⟩
  | .hbm, ⟨14, _⟩ => ⟨S1024x200x48, .i1⟩
  | .hbm, ⟨15, _⟩ => ⟨S1024x200x48, .i1⟩
  | .hbm, ⟨16, _⟩ => ⟨S_, .i32⟩
  | .hbm, ⟨17, _⟩ => ⟨S1024x200x48, .i32⟩
  | .hbm, ⟨18, _⟩ => ⟨S1024x200x48, .i1⟩
  | .hbm, ⟨19, _⟩ => ⟨S1024x200x48, .i1⟩
  | .hbm, ⟨20, _⟩ => ⟨S_, .i32⟩
  | .hbm, ⟨21, _⟩ => ⟨S1024x200x48, .i32⟩
  | .hbm, ⟨22, _⟩ => ⟨S1024x200x48, .i1⟩
  | .hbm, ⟨23, _⟩ => ⟨S1024x200x48, .i1⟩
  | .hbm, ⟨24, _⟩ => ⟨S1024x200x48, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x200x48, .i32⟩
  | .hbm, ⟨29, _⟩ => ⟨S1024x200x48, .i32⟩
  | .hbm, ⟨30, _⟩ => ⟨S_, .i32⟩
  | .hbm, ⟨31, _⟩ => ⟨S1024x200x48, .i32⟩
  | .hbm, ⟨32, _⟩ => ⟨S1024x200x48, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1024x200x48, .i32⟩
  | .hbm, ⟨37, _⟩ => ⟨S1024x200x48, .i32⟩
  | .hbm, ⟨38, _⟩ => ⟨S_, .i32⟩
  | .hbm, ⟨39, _⟩ => ⟨S1024x200x48, .i32⟩
  | .hbm, ⟨40, _⟩ => ⟨S1024x200x48, .i32⟩
  | .hbm, ⟨41, _⟩ => ⟨S_, .i32⟩
  | .hbm, ⟨42, _⟩ => ⟨S1024x200x48, .i32⟩
  | .hbm, ⟨43, _⟩ => ⟨S1024x200x48, .i32⟩
  | .hbm, ⟨44, _⟩ => ⟨S1024x200x48, .i32⟩
  | .hbm, ⟨45, _⟩ => ⟨S1024x9600, .i32⟩
  | .hbm, ⟨46, _⟩ => ⟨S1024x200x48, .f32⟩
  | .hbm, ⟨47, _⟩ => ⟨S1024x9600, .f32⟩
  | .hbm, ⟨48, _⟩ => ⟨S1024x200x48, .f32⟩
  | .hbm, ⟨49, _⟩ => ⟨S1024x9600, .f32⟩
  | .hbm, ⟨50, _⟩ => ⟨S_, .i32⟩
  | .hbm, ⟨51, _⟩ => ⟨S1024x9600, .i32⟩
  | .hbm, ⟨52, _⟩ => ⟨S1024x9600, .i1⟩
  | .hbm, ⟨53, _⟩ => ⟨S_, .i32⟩
  | .hbm, ⟨54, _⟩ => ⟨S1024x9600, .i32⟩
  | .hbm, ⟨55, _⟩ => ⟨S1024x9600, .i32⟩
  | .hbm, ⟨56, _⟩ => ⟨S1024x9600, .i32⟩
  | .hbm, ⟨57, _⟩ => ⟨S1024x9600x1, .i32⟩
  | .hbm, ⟨58, _⟩ => ⟨S1, .i32⟩
  | .hbm, ⟨59, _⟩ => ⟨S_, .i32⟩
  | .hbm, ⟨60, _⟩ => ⟨S1024x9600x1, .i32⟩
  | .hbm, ⟨61, _⟩ => ⟨S1024x9600x1, .i1⟩
  | .hbm, ⟨62, _⟩ => ⟨S1x1x1, .i32⟩
  | .hbm, ⟨63, _⟩ => ⟨S1024x9600x1, .i32⟩
  | .hbm, ⟨64, _⟩ => ⟨S1024x9600x1, .i1⟩
  | .hbm, ⟨65, _⟩ => ⟨S1024x9600x1, .i1⟩
  | .hbm, ⟨66, _⟩ => ⟨S_, .i1⟩
  | .hbm, ⟨67, _⟩ => ⟨S1024x9600, .i1⟩
  | .hbm, ⟨68, _⟩ => ⟨S1024x9600, .f32⟩
  | .hbm, ⟨69, _⟩ => ⟨S_, .f32⟩
  | .hbm, ⟨70, _⟩ => ⟨S1024x9600, .f32⟩
  | .hbm, ⟨71, _⟩ => ⟨S1024x9600, .f32⟩
  | .hbm, ⟨72, _⟩ => ⟨S_, .i32⟩
  | .hbm, ⟨73, _⟩ => ⟨S1024x9600, .i32⟩
  | .hbm, ⟨74, _⟩ => ⟨S1024x9600, .i1⟩
  | .hbm, ⟨75, _⟩ => ⟨S_, .i32⟩
  | .hbm, ⟨76, _⟩ => ⟨S1024x9600, .i32⟩
  | .hbm, ⟨77, _⟩ => ⟨S1024x9600, .i32⟩
  | .hbm, ⟨78, _⟩ => ⟨S1024x9600, .i32⟩
  | .hbm, ⟨79, _⟩ => ⟨S1024x9600x1, .i32⟩
  | .hbm, ⟨80, _⟩ => ⟨S1, .i32⟩
  | .hbm, ⟨81, _⟩ => ⟨S_, .i32⟩
  | .hbm, ⟨82, _⟩ => ⟨S1024x9600x1, .i32⟩
  | .hbm, ⟨83, _⟩ => ⟨S1024x9600x1, .i1⟩
  | .hbm, ⟨84, _⟩ => ⟨S1x1x1, .i32⟩
  | .hbm, ⟨85, _⟩ => ⟨S1024x9600x1, .i32⟩
  | .hbm, ⟨86, _⟩ => ⟨S1024x9600x1, .i1⟩
  | .hbm, ⟨87, _⟩ => ⟨S1024x9600x1, .i1⟩
  | .hbm, ⟨88, _⟩ => ⟨S_, .i1⟩
  | .hbm, ⟨89, _⟩ => ⟨S1024x9600, .i1⟩
  | .hbm, ⟨90, _⟩ => ⟨S1024x9600, .f32⟩
  | .hbm, ⟨91, _⟩ => ⟨S_, .f32⟩
  | .hbm, ⟨92, _⟩ => ⟨S1024x9600, .f32⟩
  | .hbm, ⟨93, _⟩ => ⟨S1024x9600, .f32⟩
  | .hbm, ⟨94, _⟩ => ⟨S1024x1x200x48, .f32⟩
  | .hbm, ⟨95, _⟩ => ⟨S1024x200x48, .f32⟩
  | .hbm, ⟨96, _⟩ => ⟨S1024x9600, .f32⟩
  | .hbm, ⟨97, _⟩ => ⟨S1024x9600, .f32⟩
  | .hbm, ⟨98, _⟩ => ⟨S1024x9600, .f32⟩
  | .hbm, ⟨99, _⟩ => ⟨S1x1, .f32⟩
  | .hbm, ⟨100, _⟩ => ⟨S1x1, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .local _ .vmem, ⟨0, _⟩ => ⟨S64x9600, .f32⟩
  | .local _ .vmem, ⟨1, _⟩ => ⟨S64x9600, .f32⟩
  | .local _ .vmem, ⟨2, _⟩ => ⟨S64x9600, .f32⟩
  | .local _ .vmem, ⟨3, _⟩ => ⟨S64x9600, .f32⟩
  | .local _ .vmem, ⟨4, _⟩ => ⟨S64x9600, .f32⟩
  | .local _ .vmem, ⟨5, _⟩ => ⟨S64x9600, .f32⟩
  | .local _ .vmem, ⟨6, _⟩ => ⟨S1x1, .f32⟩
  | .local _ .vmem, ⟨7, _⟩ => ⟨S1x1, .f32⟩
  | _, _ => ⟨S1024x1x200x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_c_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_c_5 : Ref sig .tc := ⟨.hbm, 33, rfl⟩
abbrev main_c_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v28 : Ref sig .tc := ⟨.hbm, 71, rfl⟩
abbrev main_call3_c : Ref sig .tc := ⟨.hbm, 72, rfl⟩
abbrev main_call3_v0 : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_c_1 : Ref sig .tc := ⟨.hbm, 80, rfl⟩
abbrev main_call3_c_2 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_3 : Ref sig .tc := ⟨.hbm, 88, rfl⟩
abbrev main_call3_v12 : Ref sig .tc := ⟨.hbm, 89, rfl⟩
abbrev main_call3_v13 : Ref sig .tc := ⟨.hbm, 90, rfl⟩
abbrev main_call3_cst : Ref sig .tc := ⟨.hbm, 91, rfl⟩
abbrev main_call3_v14 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35_0 : Ref sig .tc := ⟨.hbm, 99, rfl⟩
abbrev main_v35_1 : Ref sig .tc := ⟨.hbm, 100, rfl⟩
abbrev main_v36 : Ref sig .tc := ⟨.hbm, 101, rfl⟩
abbrev main_v37 : Ref sig .tc := ⟨.hbm, 102, rfl⟩
abbrev main_cst : Ref sig .tc := ⟨.hbm, 103, rfl⟩
abbrev main_v38 : Ref sig .tc := ⟨.hbm, 104, rfl⟩
abbrev main_v39 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x9600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x9600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x9600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S1024x3x200x48_S1024x1x200x48_0_0_0_0 : S1024x3x200x48.Slices ![0, 0, 0, 0] S1024x1x200x48
  shapeCasts_S1024x1x200x48_S1024x200x48 : S1024x1x200x48.ShapeCasts S1024x200x48
  slices_S1024x3x200x48_S1024x1x200x48_0_1_0_0 : S1024x3x200x48.Slices ![0, 1, 0, 0] S1024x1x200x48
  bcast_S_S1024x200x48 : S_.BroadcastsInDim S1024x200x48 (![] : Fin 0 → Fin S1024x200x48.rank)
  shapeCasts_S1024x200x48_S1024x9600 : S1024x200x48.ShapeCasts S1024x9600
  bcast_S_S1024x9600 : S_.BroadcastsInDim S1024x9600 (![] : Fin 0 → Fin S1024x9600.rank)
  shapeCasts_S1024x9600_S1024x9600x1 : S1024x9600.ShapeCasts S1024x9600x1
  bcast_S_S1024x9600x1 : S_.BroadcastsInDim S1024x9600x1 (![] : Fin 0 → Fin S1024x9600x1.rank)
  bcast_S1_S1x1x1_2 : S1.BroadcastsInDim S1x1x1 (![2] : Fin 1 → Fin S1x1x1.rank)
  bcast_S1x1x1_S1024x9600x1_0_1_2 : S1x1x1.BroadcastsInDim S1024x9600x1 (![0, 1, 2] : Fin 3 → Fin S1024x9600x1.rank)
  reducesTo_S1024x9600x1_S1024x9600_d2 : S1024x9600x1.ReducesTo [2] S1024x9600
  h_S_ : 0 < S_.numel
  slices_S1024x3x200x48_S1024x1x200x48_0_2_0_0 : S1024x3x200x48.Slices ![0, 2, 0, 0] S1024x1x200x48
  inb_S1x1_S1x1_0_0 : ∀ a, (![0, 0] : Fin 2 → Nat) a + S1x1.size a ≤ S1x1.size a
  h_S1x1 : 0 < S1x1.numel
  inb_S64x9600_S64x9600_0_0 : ∀ a, (![0, 0] : Fin 2 → Nat) a + S64x9600.size a ≤ S64x9600.size a
  h_S64x9600 : 0 < S64x9600.numel
  shapeCasts_S64x9600_S64x9600 : S64x9600.ShapeCasts S64x9600
  reduces_S64x9600_S64 : S64x9600.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  gather_S1024x9600_S1024x9600x1_S1024x9600_n_1_0_0_1_2_11_wf : GatherDims.WF S1024x9600 S1024x9600x1 S1024x9600 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x9600.size a ≤ S1024x9600.size a
  hwx0_0 : ∀ i : grid0.Coords, EltTy.bits .f32 = 32 ∨ (Rect.block (s := S1024x9600) S64x9600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x9600.size a ≤ S1024x9600.size a
  hwx0_1 : ∀ i : grid0.Coords, EltTy.bits .f32 = 32 ∨ (Rect.block (s := S1024x9600) S64x9600.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x9600.size a ≤ S1024x9600.size a
  hwx0_2 : ∀ i : grid0.Coords, EltTy.bits .f32 = 32 ∨ (Rect.block (s := S1024x9600) S64x9600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S1024x9600_S1024x9600x1_S1024x9600_n_1_0_0_1_2_11 : GatherDims S1024x9600 S1024x9600x1 S1024x9600 where
  offsetDims := []
  collapsedSliceDims := [1]
  operandBatchingDims := [0]
  startIndicesBatchingDims := [0]
  startIndexMap := [1]
  indexVectorDim := 2
  sliceSizes := ![1, 1]
  wf := gather_S1024x9600_S1024x9600x1_S1024x9600_n_1_0_0_1_2_11_wf

abbrev win0_0 : Pipeline.Window sig grid0 :=
  Pipeline.Window.ofSpec (Memref.whole main_v28) S64x9600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S64x9600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S64x9600.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1x200x48 : Shape := ⟨4, ![1024, 1, 200, 48]⟩
abbrev S1024x3x200x48 : Shape := ⟨4, ![1024, 3, 200, 48]⟩
abbrev S1024x200x48 : Shape := ⟨3, ![1024, 200, 48]⟩
abbrev S_ : Shape := ⟨0, ![]⟩
abbrev S1024x9600 : Shape := ⟨2, ![1024, 9600]⟩
abbrev S1024x9600x1 : Shape := ⟨3, ![1024, 9600, 1]⟩
abbrev S1 : Shape := ⟨1, ![1]⟩
abbrev S1x1x1 : Shape := ⟨3, ![1, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S1024x1x200x48, .f32⟩
  | .hbm, ⟨1, _⟩ => ⟨S1024x3x200x48, .f32⟩
  | .hbm, ⟨2, _⟩ => ⟨S1024x1x200x48, .f32⟩
  | .hbm, ⟨3, _⟩ => ⟨S1024x1x200x48, .f32⟩
  | .hbm, ⟨4, _⟩ => ⟨S1024x200x48, .f32⟩
  | .hbm, ⟨5, _⟩ => ⟨S1024x200x48, .i32⟩
  | .hbm, ⟨6, _⟩ => ⟨S1024x1x200x48, .f32⟩
  | .hbm, ⟨7, _⟩ => ⟨S1024x200x48, .f32⟩
  | .hbm, ⟨8, _⟩ => ⟨S1024x200x48, .i32⟩
  | .hbm, ⟨9, _⟩ => ⟨S_, .i32⟩
  | .hbm, ⟨10, _⟩ => ⟨S1024x200x48, .i32⟩
  | .hbm, ⟨11, _⟩ => ⟨S1024x200x48, .i1⟩
  | .hbm, ⟨12, _⟩ => ⟨S_, .i32⟩
  | .hbm, ⟨13, _⟩ => ⟨S1024x200x48, .i32⟩
  | .hbm, ⟨14, _⟩ => ⟨S1024x200x48, .i1⟩
  | .hbm, ⟨15, _⟩ => ⟨S1024x200x48, .i1⟩
  | .hbm, ⟨16, _⟩ => ⟨S_, .i32⟩
  | .hbm, ⟨17, _⟩ => ⟨S1024x200x48, .i32⟩
  | .hbm, ⟨18, _⟩ => ⟨S1024x200x48, .i1⟩
  | .hbm, ⟨19, _⟩ => ⟨S1024x200x48, .i1⟩
  | .hbm, ⟨20, _⟩ => ⟨S_, .i32⟩
  | .hbm, ⟨21, _⟩ => ⟨S1024x200x48, .i32⟩
  | .hbm, ⟨22, _⟩ => ⟨S1024x200x48, .i1⟩
  | .hbm, ⟨23, _⟩ => ⟨S1024x200x48, .i1⟩
  | .hbm, ⟨24, _⟩ => ⟨S1024x200x48, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x200x48, .i32⟩
  | .hbm, ⟨29, _⟩ => ⟨S1024x200x48, .i32⟩
  | .hbm, ⟨30, _⟩ => ⟨S_, .i32⟩
  | .hbm, ⟨31, _⟩ => ⟨S1024x200x48, .i32⟩
  | .hbm, ⟨32, _⟩ => ⟨S1024x200x48, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1024x200x48, .i32⟩
  | .hbm, ⟨37, _⟩ => ⟨S1024x200x48, .i32⟩
  | .hbm, ⟨38, _⟩ => ⟨S_, .i32⟩
  | .hbm, ⟨39, _⟩ => ⟨S1024x200x48, .i32⟩
  | .hbm, ⟨40, _⟩ => ⟨S1024x200x48, .i32⟩
  | .hbm, ⟨41, _⟩ => ⟨S_, .i32⟩
  | .hbm, ⟨42, _⟩ => ⟨S1024x200x48, .i32⟩
  | .hbm, ⟨43, _⟩ => ⟨S1024x200x48, .i32⟩
  | .hbm, ⟨44, _⟩ => ⟨S1024x200x48, .i32⟩
  | .hbm, ⟨45, _⟩ => ⟨S1024x9600, .i32⟩
  | .hbm, ⟨46, _⟩ => ⟨S1024x200x48, .f32⟩
  | .hbm, ⟨47, _⟩ => ⟨S1024x9600, .f32⟩
  | .hbm, ⟨48, _⟩ => ⟨S1024x200x48, .f32⟩
  | .hbm, ⟨49, _⟩ => ⟨S1024x9600, .f32⟩
  | .hbm, ⟨50, _⟩ => ⟨S_, .i32⟩
  | .hbm, ⟨51, _⟩ => ⟨S1024x9600, .i32⟩
  | .hbm, ⟨52, _⟩ => ⟨S1024x9600, .i1⟩
  | .hbm, ⟨53, _⟩ => ⟨S_, .i32⟩
  | .hbm, ⟨54, _⟩ => ⟨S1024x9600, .i32⟩
  | .hbm, ⟨55, _⟩ => ⟨S1024x9600, .i32⟩
  | .hbm, ⟨56, _⟩ => ⟨S1024x9600, .i32⟩
  | .hbm, ⟨57, _⟩ => ⟨S1024x9600x1, .i32⟩
  | .hbm, ⟨58, _⟩ => ⟨S1, .i32⟩
  | .hbm, ⟨59, _⟩ => ⟨S_, .i32⟩
  | .hbm, ⟨60, _⟩ => ⟨S1024x9600x1, .i32⟩
  | .hbm, ⟨61, _⟩ => ⟨S1024x9600x1, .i1⟩
  | .hbm, ⟨62, _⟩ => ⟨S1x1x1, .i32⟩
  | .hbm, ⟨63, _⟩ => ⟨S1024x9600x1, .i32⟩
  | .hbm, ⟨64, _⟩ => ⟨S1024x9600x1, .i1⟩
  | .hbm, ⟨65, _⟩ => ⟨S1024x9600x1, .i1⟩
  | .hbm, ⟨66, _⟩ => ⟨S_, .i1⟩
  | .hbm, ⟨67, _⟩ => ⟨S1024x9600, .i1⟩
  | .hbm, ⟨68, _⟩ => ⟨S1024x9600, .f32⟩
  | .hbm, ⟨69, _⟩ => ⟨S_, .f32⟩
  | .hbm, ⟨70, _⟩ => ⟨S1024x9600, .f32⟩
  | .hbm, ⟨71, _⟩ => ⟨S1024x9600, .f32⟩
  | .hbm, ⟨72, _⟩ => ⟨S1024x200x48, .f32⟩
  | .hbm, ⟨73, _⟩ => ⟨S_, .i32⟩
  | .hbm, ⟨74, _⟩ => ⟨S1024x9600, .i32⟩
  | .hbm, ⟨75, _⟩ => ⟨S1024x9600, .i1⟩
  | .hbm, ⟨76, _⟩ => ⟨S_, .i32⟩
  | .hbm, ⟨77, _⟩ => ⟨S1024x9600, .i32⟩
  | .hbm, ⟨78, _⟩ => ⟨S1024x9600, .i32⟩
  | .hbm, ⟨79, _⟩ => ⟨S1024x9600, .i32⟩
  | .hbm, ⟨80, _⟩ => ⟨S1024x9600x1, .i32⟩
  | .hbm, ⟨81, _⟩ => ⟨S1, .i32⟩
  | .hbm, ⟨82, _⟩ => ⟨S_, .i32⟩
  | .hbm, ⟨83, _⟩ => ⟨S1024x9600x1, .i32⟩
  | .hbm, ⟨84, _⟩ => ⟨S1024x9600x1, .i1⟩
  | .hbm, ⟨85, _⟩ => ⟨S1x1x1, .i32⟩
  | .hbm, ⟨86, _⟩ => ⟨S1024x9600x1, .i32⟩
  | .hbm, ⟨87, _⟩ => ⟨S1024x9600x1, .i1⟩
  | .hbm, ⟨88, _⟩ => ⟨S1024x9600x1, .i1⟩
  | .hbm, ⟨89, _⟩ => ⟨S_, .i1⟩
  | .hbm, ⟨90, _⟩ => ⟨S1024x9600, .i1⟩
  | .hbm, ⟨91, _⟩ => ⟨S1024x9600, .f32⟩
  | .hbm, ⟨92, _⟩ => ⟨S_, .f32⟩
  | .hbm, ⟨93, _⟩ => ⟨S1024x9600, .f32⟩
  | .hbm, ⟨94, _⟩ => ⟨S1024x9600, .f32⟩
  | .hbm, ⟨95, _⟩ => ⟨S1024x200x48, .f32⟩
  | .hbm, ⟨96, _⟩ => ⟨S1024x1x200x48, .f32⟩
  | .hbm, ⟨97, _⟩ => ⟨S1024x200x48, .f32⟩
  | .hbm, ⟨98, _⟩ => ⟨S1024x200x48, .f32⟩
  | .hbm, ⟨99, _⟩ => ⟨S1024x200x48, .f32⟩
  | .hbm, ⟨100, _⟩ => ⟨S_, .f32⟩
  | .hbm, ⟨101, _⟩ => ⟨S1024x200x48, .f32⟩
  | .hbm, ⟨102, _⟩ => ⟨S1024x200x48, .i1⟩
  | .hbm, ⟨103, _⟩ => ⟨S_, .f32⟩
  | .hbm, ⟨104, _⟩ => ⟨S1024x200x48, .f32⟩
  | .hbm, ⟨105, _⟩ => ⟨S1024x200x48, .f32⟩
  | .hbm, ⟨106, _⟩ => ⟨S1024x200x48, .f32⟩
  | .hbm, ⟨107, _⟩ => ⟨S_, .f32⟩
  | .hbm, ⟨108, _⟩ => ⟨S1024x200x48, .f32⟩
  | .hbm, ⟨109, _⟩ => ⟨S1024x200x48, .f32⟩
  | .hbm, ⟨110, _⟩ => ⟨S1024x200x48, .f32⟩
  | .hbm, ⟨111, _⟩ => ⟨S1024x200x48, .f32⟩
  | .hbm, ⟨112, _⟩ => ⟨S1024x200x48, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S1024x1x200x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_c_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_c_5 : Ref sig .tc := ⟨.hbm, 33, rfl⟩
abbrev main_c_6 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v28 : Ref sig .tc := ⟨.hbm, 71, rfl⟩
abbrev main_v29 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_cst : Ref sig .tc := ⟨.hbm, 92, rfl⟩
abbrev main_call3_v14 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_cst : Ref sig .tc := ⟨.hbm, 100, rfl⟩
abbrev main_v36 : Ref sig .tc := ⟨.hbm, 101, rfl⟩
abbrev main_v37 : Ref sig .tc := ⟨.hbm, 102, rfl⟩
abbrev main_cst_8 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_cst_9 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_cst_10 : Ref sig .tc := ⟨.hbm, 113, rfl⟩
abbrev main_v46 : Ref sig .tc := ⟨.hbm, 114, rfl⟩
abbrev main_cst_11 : Ref sig .tc := ⟨.hbm, 115, rfl⟩
abbrev main_v47 : Ref sig .tc := ⟨.hbm, 116, rfl⟩
abbrev main_cst_12 : Ref sig .tc := ⟨.hbm, 117, rfl⟩
abbrev main_v48 : Ref sig .tc := ⟨.hbm, 118, rfl⟩
abbrev main_v49 : Ref sig .tc := ⟨.hbm, 119, rfl⟩

abbrev nD : Nat := 1
abbrev τ : Topo := Topo.v7x

variable {F : FTy → Type} [FloatOps F]

class Facts₀ : Prop where
  slices_S1024x3x200x48_S1024x1x200x48_0_0_0_0 : S1024x3x200x48.Slices ![0, 0, 0, 0] S1024x1x200x48
  shapeCasts_S1024x1x200x48_S1024x200x48 : S1024x1x200x48.ShapeCasts S1024x200x48
  slices_S1024x3x200x48_S1024x1x200x48_0_1_0_0 : S1024x3x200x48.Slices ![0, 1, 0, 0] S1024x1x200x48
  bcast_S_S1024x200x48 : S_.BroadcastsInDim S1024x200x48 (![] : Fin 0 → Fin S1024x200x48.rank)
  shapeCasts_S1024x200x48_S1024x9600 : S1024x200x48.ShapeCasts S1024x9600
  bcast_S_S1024x9600 : S_.BroadcastsInDim S1024x9600 (![] : Fin 0 → Fin S1024x9600.rank)
  shapeCasts_S1024x9600_S1024x9600x1 : S1024x9600.ShapeCasts S1024x9600x1
  bcast_S_S1024x9600x1 : S_.BroadcastsInDim S1024x9600x1 (![] : Fin 0 → Fin S1024x9600x1.rank)
  bcast_S1_S1x1x1_2 : S1.BroadcastsInDim S1x1x1 (![2] : Fin 1 → Fin S1x1x1.rank)
  bcast_S1x1x1_S1024x9600x1_0_1_2 : S1x1x1.BroadcastsInDim S1024x9600x1 (![0, 1, 2] : Fin 3 → Fin S1024x9600x1.rank)
  reducesTo_S1024x9600x1_S1024x9600_d2 : S1024x9600x1.ReducesTo [2] S1024x9600
  h_S_ : 0 < S_.numel
  shapeCasts_S1024x9600_S1024x200x48 : S1024x9600.ShapeCasts S1024x200x48
  slices_S1024x3x200x48_S1024x1x200x48_0_2_0_0 : S1024x3x200x48.Slices ![0, 2, 0, 0] S1024x1x200x48
  reducesTo_S1024x200x48_S_d0_1_2 : S1024x200x48.ReducesTo [0, 1, 2] S_
  gather_S1024x9600_S1024x9600x1_S1024x9600_n_1_0_0_1_2_11_wf : GatherDims.WF S1024x9600 S1024x9600x1 S1024x9600 [] [1] [0] [1] [0] 2 ![1, 1]

variable [Facts₀]

def gather_S1024x9600_S1024x9600x1_S1024x9600_n_1_0_0_1_2_11 : GatherDims S1024x9600 S1024x9600x1 S1024x9600 where
  offsetDims := []
  collapsedSliceDims := [1]
  operandBatchingDims := [0]
  startIndicesBatchingDims := [0]
  startIndexMap := [1]
  indexVectorDim := 2
  sliceSizes := ![1, 1]
  wf := gather_S1024x9600_S1024x9600x1_S1024x9600_n_1_0_0_1_2_11_wf

class Facts : Prop extends Facts₀ where

variable [Facts]
-- ==== Proof.Accumulate.lean ====
/-
  The value of the kernel's idealization, read off its frame run.

  The kernel walks a grid of sixteen points. At point t it sees row block t (64 rows of 9600) of three arrays a, b
  and w. With d = a - b, the block's loss terms are (d * d / 2 where |d| < 1, and |d| - 1/2 elsewhere) times w. The
  kernel keeps two running totals, each a [1,1] array whose block never moves: the loss total (the block's loss terms
  summed along the rows and then down the column) and the weight total (the block of w summed the same way). At
  point 0 both totals are first set to the zero splat; at every point the block's two sums are added to the totals;
  both are written back once, after point 15. After the region the host reshapes each total to a scalar, adds a small
  constant to the weight total and divides the loss total by it.

  So the whole computation is a fold over the grid in point order: `chain` states the pair of totals after point n
  as a recursion on n over the per-block payloads, `outsAt_eq` proves that this is what the two staging buffers hold
  after point n (the first point resets, a later point adds to what the point before left), `final3` / `final4` that
  the one write-back leaves the totals after point 15 in the result arrays (the block of a [1,1] array at zero offsets
  is the array), and `run` that the program's last value is the quotient of those two totals, the second shifted by
  the constant, with the three arguments unchanged. Everything is stated for an arbitrary float instance.
-/
import proofs.«177766_j10488310137062_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-- Both zero offsets of a rank-two load or store, as the constant-zero offset function. -/
theorem hz : (![0, 0] : Fin 2 → Nat) = fun _ => 0 := funext fun a => by fin_cases a <;> rfl

/-! ## What each control case leaves in the two running totals

At the first grid point both totals are reset to the zero splat and then the block's sums are added; at every later
point the block's sums are added to what the point before left. Each of the four values is the payload of the one
store that covers the [1,1] buffer last; the loads that feed it read whole buffers. -/

/-- A later point, the loss total: the old total plus the block's loss sum. -/
theorem out_B_3 (c : Dev nD) (i : grid0.Coords) (a1 : Memref sig .tc .vmem S64x9600 .f32) (h1 : a1.IsWhole) (a2 : Memref sig .tc .vmem S64x9600 .f32) (h2 : a2.IsWhole) (a3 : Memref sig .tc .vmem S64x9600 .f32) (h3 : a3.IsWhole) (a4 : Memref sig .tc .vmem S1x1 .f32) (h4 : a4.IsWhole) (a5 : Memref sig .tc .vmem S1x1 .f32) (h5 : a5.IsWhole) (hc : ¬cond0_0 i)
    (x0 x1 x2 : Vec F S64x9600 .f32) (xo3 xo4 : Vec F S1x1 .f32) :
    out0_B_3 c i a1 h1 a2 h2 a3 h3 a4 h4 a5 h5 hc x0 x1 x2 xo3 xo4 = k0_pay4 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz]
  simp only [View.readAt_eq_ld, h1.read_unread, h2.read_unread, h3.read_unread, h4.read_unread,
    View.ld_unit_zero (S := S64x9600) hz, View.ld_unit_zero (S := S1x1) hz]

/-- A later point, the weight total: the old total plus the block's weight sum. -/
theorem out_B_4 (c : Dev nD) (i : grid0.Coords) (a1 : Memref sig .tc .vmem S64x9600 .f32) (h1 : a1.IsWhole) (a2 : Memref sig .tc .vmem S64x9600 .f32) (h2 : a2.IsWhole) (a3 : Memref sig .tc .vmem S64x9600 .f32) (h3 : a3.IsWhole) (a4 : Memref sig .tc .vmem S1x1 .f32) (h4 : a4.IsWhole) (a5 : Memref sig .tc .vmem S1x1 .f32) (h5 : a5.IsWhole) (hc : ¬cond0_0 i)
    (x0 x1 x2 : Vec F S64x9600 .f32) (xo3 xo4 : Vec F S1x1 .f32) :
    out0_B_4 c i a1 h1 a2 h2 a3 h3 a4 h4 a5 h5 hc x0 x1 x2 xo3 xo4 = k0_pay5 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz]
  simp only [View.readAt_eq_ld, h3.read_unread, h5.read_unread,
    View.ld_unit_zero (S := S64x9600) hz, View.ld_unit_zero (S := S1x1) hz]

/-- The first point, the loss total: the zero splat is stored, read back, and the block's loss sum added to it. -/
theorem out_A_3 (c : Dev nD) (i : grid0.Coords) (a1 : Memref sig .tc .vmem S64x9600 .f32) (h1 : a1.IsWhole) (a2 : Memref sig .tc .vmem S64x9600 .f32) (h2 : a2.IsWhole) (a3 : Memref sig .tc .vmem S64x9600 .f32) (h3 : a3.IsWhole) (a4 : Memref sig .tc .vmem S1x1 .f32) (h4 : a4.IsWhole) (a5 : Memref sig .tc .vmem S1x1 .f32) (h5 : a5.IsWhole) (hc : cond0_0 i)
    (x0 x1 x2 : Vec F S64x9600 .f32) :
    out0_A_3 c i a1 h1 a2 h2 a3 h3 a4 h4 a5 h5 hc x0 x1 x2 = k0_pay4 x0 x1 x2 (k0_pay1 (F := F)) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S64x9600) hz]

/-- The first point, the weight total: the zero splat is stored, read back, and the block's weight sum added to it. -/
theorem out_A_4 (c : Dev nD) (i : grid0.Coords) (a1 : Memref sig .tc .vmem S64x9600 .f32) (h1 : a1.IsWhole) (a2 : Memref sig .tc .vmem S64x9600 .f32) (h2 : a2.IsWhole) (a3 : Memref sig .tc .vmem S64x9600 .f32) (h3 : a3.IsWhole) (a4 : Memref sig .tc .vmem S1x1 .f32) (h4 : a4.IsWhole) (a5 : Memref sig .tc .vmem S1x1 .f32) (h5 : a5.IsWhole) (hc : cond0_0 i)
    (x0 x1 x2 : Vec F S64x9600 .f32) :
    out0_A_4 c i a1 h1 a2 h2 a3 h3 a4 h4 a5 h5 hc x0 x1 x2 = k0_pay5 x2 (k0_pay2 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h3.read_unread, View.ld_unit_zero (S := S64x9600) hz]

/-! ## The two running totals, point by point -/

/-- the two running totals after point n: at point 0 the zero splats plus block 0's sums, then each point adds its block's sums -/
def chain (c : Dev nD) : (n : ℕ) → n < cfg0.N → Vec F S1x1 .f32 × Vec F S1x1 .f32
  | 0, h => (k0_pay4 (iblk m c 0 ⟨0, h⟩) (iblk m c 1 ⟨0, h⟩) (iblk m c 2 ⟨0, h⟩) (k0_pay1 (F := F)), k0_pay5 (iblk m c 2 ⟨0, h⟩) (k0_pay2 (F := F)))
  | n + 1, h => (k0_pay4 (iblk m c 0 ⟨n + 1, h⟩) (iblk m c 1 ⟨n + 1, h⟩) (iblk m c 2 ⟨n + 1, h⟩) (chain c n (Nat.lt_of_succ_lt h)).1, k0_pay5 (iblk m c 2 ⟨n + 1, h⟩) (chain c n (Nat.lt_of_succ_lt h)).2)

/-- The grid has sixteen points, so the last one is point 15. -/
theorem h15 : 15 < cfg0.N := by
  have hN : cfg0.N = 16 := N_0
  omega

/-- What the two staging buffers hold after point n is the pair of running totals: by induction on the point, the
    first point resetting both and every later point adding to what the point before left. -/
theorem outsAt_eq (c : Dev nD) : ∀ (n : ℕ) (h : n < cfg0.N), outsAt0 m c n h = chain m c n h
  | 0, h => by
    rw [outsAt0_A m c ⟨0, h⟩ rfl, out_A_3, out_A_4]
    rfl
  | n + 1, h => by
    have hN : cfg0.N = 16 := N_0
    have hB : ¬(⟨n + 1, h⟩ : Fin cfg0.N).val % 16 = 0 := by dsimp only; omega
    rw [outsAt0_B m c ⟨n + 1, h⟩ hB, out_B_3, out_B_4]
    show (k0_pay4 _ _ _ (outsAt0 m c n _).1, k0_pay5 _ (outsAt0 m c n _).2) = (k0_pay4 _ _ _ (chain m c n _).1, k0_pay5 _ (chain m c n _).2)
    rw [outsAt_eq c n]

/-! ## The result arrays: the totals after the last point -/

/-- The loss total after point 15, as contents of the first result array. -/
abbrev total3 (c : Dev nD) : Buf (Elt F) ((c : Thread nD τ).loc main_v35_0) := (chain m c 15 h15).1
/-- The weight total after point 15, as contents of the second result array. -/
abbrev total4 (c : Dev nD) : Buf (Elt F) ((c : Thread nD τ).loc main_v35_1) := (chain m c 15 h15).2

/-- The one write-back of output 3, after the last point, writes the last running total: block (0, 0) of a [1,1]
    array read through zero offsets is the whole array. -/
theorem flushed3 (c : Dev nD) (t : Fin cfg0.N) (hf : (cfg0.win 3).flush t = true) :
    (dats m 0 c).flushed 3 t = ((cfg0.win 3).blk t).view.read (Elt F) (total3 m c) := by
  have hN : cfg0.N = 16 := N_0
  have ht : t.val = 15 := by have := (flush0_3 t).mp hf; have := t.isLt; omega
  obtain rfl : t = t0_15 := Fin.ext ht
  show (cfg0.win 3).cut (grid0.coords t0_15) ((dats m 0 c).after 3 t0_15) = _
  rw [after0_3, outsAt_eq]
  have hz' : (fun a => win0_3.index t0_15 a * main_v35_0.ty.shape.size a) = fun _ => 0 := funext fun a => by fin_cases a <;> decide
  exact (Memref.read_access_unit_zero (Elt F) main_v35_0 hz' (fun a => by rw [congrFun hz' a]; simp) (total3 m c)).symm

/-- So output 3's array ends holding the last running total: the last point's block covers its one entry. -/
theorem final3 (c : Dev nD) : (dats m 0 c).arrAt 3 cfg0.N = (chain m c 15 h15).1 :=
  (dats m 0 c).arrAt_eq_of_cover 3 (total3 m c) (flushed3 m c) fun i =>
    ⟨t0_15, (flush0_3 t0_15).mpr rfl, by
      show i ∈ ((View.whole main_v35_0).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

/-- The one write-back of output 4, after the last point, writes the last running total: block (0, 0) of a [1,1]
    array read through zero offsets is the whole array. -/
theorem flushed4 (c : Dev nD) (t : Fin cfg0.N) (hf : (cfg0.win 4).flush t = true) :
    (dats m 0 c).flushed 4 t = ((cfg0.win 4).blk t).view.read (Elt F) (total4 m c) := by
  have hN : cfg0.N = 16 := N_0
  have ht : t.val = 15 := by have := (flush0_4 t).mp hf; have := t.isLt; omega
  obtain rfl : t = t0_15 := Fin.ext ht
  show (cfg0.win 4).cut (grid0.coords t0_15) ((dats m 0 c).after 4 t0_15) = _
  rw [after0_4, outsAt_eq]
  have hz' : (fun a => win0_4.index t0_15 a * main_v35_1.ty.shape.size a) = fun _ => 0 := funext fun a => by fin_cases a <;> decide
  exact (Memref.read_access_unit_zero (Elt F) main_v35_1 hz' (fun a => by rw [congrFun hz' a]; simp) (total4 m c)).symm

/-- So output 4's array ends holding the last running total: the last point's block covers its one entry. -/
theorem final4 (c : Dev nD) : (dats m 0 c).arrAt 4 cfg0.N = (chain m c 15 h15).2 :=
  (dats m 0 c).arrAt_eq_of_cover 4 (total4 m c) (flushed4 m c) fun i =>
    ⟨t0_15, (flush0_4 t0_15).mpr rfl, by
      show i ∈ ((View.whole main_v35_1).slice (win0_4.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 1 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 1 from by decide +kernel]; omega⟩

/-! ## The host operations after the region, and the run -/

/-- The last value of the program: after the region each [1,1] result array is reshaped to a scalar, a constant is
    added to the weight total, and the loss total is divided by that sum. Each result array is read where the region
    left it, at the total after the last point. -/
theorem tail_v39 (c : Dev nD) :
    Pipeline.afterTail₀ cfgs (dats m) 0 (V0 m) [hostOps1] c main_v39
      = Host.divf (shapeCast S_ (chain m c 15 h15).1 shapeCasts_S1x1_S_)
          (addf (shapeCast S_ (chain m c 15 h15).2 shapeCasts_S1x1_S_) (constant S_ .f32 0x358637BD#32)) := by
  unfold Pipeline.afterTail₀
  show StableHlo.after hostOps1 _ (Proc.devRef .tc main_v39) = _
  after_results
  have e3 : Pipeline.withArrays (cfgs 0).spec c (V0 m c) (fun w => (dats m 0 c).arrAt w (cfgs 0).N)
      (Proc.devRef .tc main_v35_0) = (chain m c 15 h15).1 :=
    (Pipeline.withArrays_arr spec0 launch0.win.arr_inj c _ _ 3).trans (final3 m c)
  have e4 : Pipeline.withArrays (cfgs 0).spec c (V0 m c) (fun w => (dats m 0 c).arrAt w (cfgs 0).N)
      (Proc.devRef .tc main_v35_1) = (chain m c 15 h15).2 :=
    (Pipeline.withArrays_arr spec0 launch0.win.arr_inj c _ _ 4).trans (final4 m c)
  rw [e3, e4]
  rfl

/-- The run, read: every weakly fair execution ends with the last value at the quotient of the two totals after the
    last point (the second shifted by the constant), and the three arguments as launched. -/
theorem run : θ_run defs (onTc (τ := τ) (main (F := F))) ⟨m, fun _ => 0, ρ⟩ fun r => ∀ c : Dev nD,
      r.2.mem ((c.tc : Thread nD τ).loc main_v39)
        = Host.divf (shapeCast S_ (chain m c 15 h15).1 shapeCasts_S1x1_S_)
            (addf (shapeCast S_ (chain m c 15 h15).2 shapeCasts_S1x1_S_) (constant S_ .f32 0x358637BD#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v39 (Pipeline.mem_restRefs_of main_v39 (by decide) (by decide))).trans (tail_v39 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.Summand.lean ====
import Idealize.ShloMosaic.PureOps.Ideal
import Idealize.ShloMosaic.Lib.ValueIdx

/-!
  The loss's pointwise part, over the extended reals.

  For a sampled height `a`, a target `v` and a weight `w` the entry contributes `huber (a − v) · w` to the loss sum,
  where `huber d` is the smooth-L1 value of the difference: `(½·d)·d` where `|d| < 1` and `|d| − ½` elsewhere. Both
  programs compute exactly this at every entry; they differ only in how the entries are then added up.
-/

noncomputable section

namespace Cert.Loss

open Idealize.ShloMosaic

/-- The smooth-L1 value of a difference `d`: `(½·d)·d` where `|d| < 1`, `|d| − ½` elsewhere; `|d|` is `max d (−d)`,
    and the two constants are the binary floats `1` and `½`, which denote those numbers exactly. -/
def huber (d : EReal) : EReal :=
  Scalar.select (Ideal.cmp .olt (max d (-d)) (Ideal.ofBits .f32 0x3F800000#32))
    (Ideal.ofBits .f32 0x3F000000#32 * d * d) (max d (-d) - Ideal.ofBits .f32 0x3F000000#32)

/-- One entry's contribution to the loss sum: the smooth-L1 value of `a − v`, weighted by `w`. -/
def summand (a v w : EReal) : EReal := huber (a - v) * w

/-- The vector form of the summand, as a body working on whole blocks writes it (subtract, absolute value, compare with
    `1`, the two branches, select, weight), read at an index. -/
theorem vector_form {s : Shape} (a v w : FVec Ideal s .f32) (i : s.Idx) :
    mulf (select (cmpf .olt (absf (subf a v)) (broadcast s (Scalar.ofBits (F := Ideal) .f32 0x3F800000#32)))
        (mulf (mulf (broadcast s (Scalar.ofBits (F := Ideal) .f32 0x3F000000#32)) (subf a v)) (subf a v))
        (subf (absf (subf a v)) (broadcast s (Scalar.ofBits (F := Ideal) .f32 0x3F000000#32)))) w i
      = summand (a i) (v i) (w i) := rfl

end Cert.Loss

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.BlockSums.lean ====
import proofs.«177766_j10488310137062_1_alg».proof.Proof.Gen.KernelIdeal.Skeleton
import proofs.«177766_j10488310137062_1_alg».proof.Proof.Summand
import proofs.«177766_j10488310137062_1_alg».proof.Proof.LibColumnForms
import Idealize.ShloMosaic.Lib.ValueIdx
import Idealize.ShloMosaic.Lib.Pipeline.Value
import Idealize.ShloMosaic.PureOps.Ideal.Laws

/-!
  The body's stored values, over the extended reals, as plain double sums.

  On three blocks of 64 rows by 9600 lanes the body forms, entry by entry, the weighted smooth-L1 value of the
  difference of the first two blocks, adds the 9600 entries of each row, adds the 64 row totals, and adds the result to
  the number its 1-by-1 output already held. A second output accumulates, in the same two steps, the entries of the
  weight block alone. Over the extended reals nothing is rounded, so each stored value is the old value plus a sum over
  rows of sums over lanes; the casts between a vector and a one-lane column only rename positions.
-/

noncomputable section

namespace Cert.KernelIdeal.Acc

open Idealize.ShloMosaic Idealize.ShloMosaic.ValueIdx Cert.KernelIdeal Cert.KernelIdeal.Gen

/-- Adding up the lane axis of a 64-by-9600 block from a zero accumulator: row `r` of the result is the sum of the
    9600 entries of row `r`. The index over row `r` with lane `k` put back is `(r, k)`, coordinate by coordinate. -/
theorem lane_sum (v : FVec Ideal S64x9600 .f32) (h : S64x9600.Reduces [1] S64) (hφ : FKind.Formats .f32)
    (hacc : (0x00000000#32 : BitVec 32) = 0x00000000#32) (r : Fin 64) :
    multiReduction (F := Ideal) .add [1] S64 v 0x00000000#32 h hφ hacc (ix1 r) = ∑ k : Fin 9600, v (ix2 r k) := by
  refine (Ideal.multiReduction_add_single v 0x00000000#32 h hφ hacc (ix1 r)).trans ?_
  refine Finset.sum_congr rfl fun k _ => congrArg v ?_
  funext c
  match c with
  | ⟨0, _⟩ => rfl
  | ⟨1, _⟩ => rfl

/-- Adding up the row axis of a 64-by-1 column from a zero accumulator: the one entry of the result is the sum of the
    column's 64 entries. -/
theorem sublane_sum (v : FVec Ideal S64x1 .f32) (h : S64x1.Reduces [0] S1) (hφ : FKind.Formats .f32)
    (hacc : (0x00000000#32 : BitVec 32) = 0x00000000#32) :
    multiReduction (F := Ideal) .add [0] S1 v 0x00000000#32 h hφ hacc (ix1 (0 : Fin 1))
      = ∑ r : Fin 64, v (ix2 r (0 : Fin 1)) := by
  refine (Ideal.multiReduction_add_single v 0x00000000#32 h hφ hacc (ix1 (0 : Fin 1))).trans ?_
  refine Finset.sum_congr rfl fun r _ => congrArg v ?_
  funext c
  match c with
  | ⟨0, _⟩ => rfl
  | ⟨1, _⟩ => rfl

/-- The two sums with the two casts between them, on any 64-by-9600 block `v`: the lane sums form a vector of 64 row
    totals, recast as a one-lane column; the sum down that column is one number, recast as a 1-by-1 array. Read at
    that array's only index it is the sum over rows of the sums over lanes of `v`. -/
theorem total_sum (v : FVec Ideal S64x9600 .f32) (u w : Fin 1) :
    shapeCast S1x1
        (multiReduction (F := Ideal) .add [0] S1
          (shapeCast S64x1
            (multiReduction (F := Ideal) .add [1] S64 v 0x00000000#32 reduces_S64x9600_S64 (.inl rfl) rfl)
            shapeCasts_S64_S64x1)
          0x00000000#32 reduces_S64x1_S1 (.inl rfl) rfl)
        shapeCasts_S1_S1x1 (ix2 u w)
      = ∑ r : Fin 64, ∑ k : Fin 9600, v (ix2 r k) := by
  refine (ValueLayout.shapeCast_a_a1_apply _ shapeCasts_S1_S1x1 u w).trans ?_
  obtain rfl : u = 0 := Subsingleton.elim _ _
  refine (sublane_sum _ reduces_S64x1_S1 (.inl rfl) rfl).trans ?_
  refine Finset.sum_congr rfl fun r _ => ?_
  refine (ValueLayout.shapeCast_a_a1_apply _ shapeCasts_S64_S64x1 r (0 : Fin 1)).trans ?_
  exact lane_sum v reduces_S64x9600_S64 (.inl rfl) rfl r

/-- The value the first grid point stores into the loss output before accumulating: the zero splat. -/
theorem pay1_apply (y : S1x1.Idx) : k0_pay1 (F := Ideal) y = 0 :=
  Ideal.ofBits_zero_f32

/-- The value the first grid point stores into the weight output before accumulating: the zero splat. -/
theorem pay2_apply (y : S1x1.Idx) : k0_pay2 (F := Ideal) y = 0 :=
  Ideal.ofBits_zero_f32

/-- The weight output's new value: what it held plus the sum of all the entries of the weight block. -/
theorem pay5_apply (x2 : Vec Ideal S64x9600 .f32) (acc : Vec Ideal S1x1 .f32) (y : S1x1.Idx) :
    k0_pay5 (F := Ideal) x2 acc y = acc y + ∑ r : Fin 64, ∑ k : Fin 9600, x2 (ix2 r k) := by
  obtain ⟨u, w, rfl⟩ : ∃ (u : Fin 1) (w : Fin 1), y = ix2 u w := ⟨y 0, y 1, eq_ix2 y⟩
  have h3 : k0_pay3 (F := Ideal) x2 = x2 := shapeCast_self x2 _
  unfold k0_pay5
  refine (addf_apply _ _ _).trans ?_
  refine congrArg₂ (· + ·) (congrFun (shapeCast_self acc _) _) ((total_sum (k0_pay3 x2) u w).trans ?_)
  rw [h3]

/-- The loss output's new value: what it held plus the sum, over all the entries of the blocks, of the weighted
    smooth-L1 value of the difference. The entrywise part of the body is the summand by unfolding; the rest is the two
    sums. -/
theorem pay4_apply (x0 x1 x2 : Vec Ideal S64x9600 .f32) (acc : Vec Ideal S1x1 .f32) (y : S1x1.Idx) :
    k0_pay4 (F := Ideal) x0 x1 x2 acc y
      = acc y + ∑ r : Fin 64, ∑ k : Fin 9600,
          Cert.Loss.summand (x0 (ix2 r k)) (x1 (ix2 r k)) (x2 (ix2 r k)) := by
  obtain ⟨u, w, rfl⟩ : ∃ (u : Fin 1) (w : Fin 1), y = ix2 u w := ⟨y 0, y 1, eq_ix2 y⟩
  have h0 : shapeCast S64x9600 x0 shapeCasts_S64x9600_S64x9600 = x0 := shapeCast_self x0 _
  have h1 : shapeCast S64x9600 x1 shapeCasts_S64x9600_S64x9600 = x1 := shapeCast_self x1 _
  have h3 : k0_pay3 (F := Ideal) x2 = x2 := shapeCast_self x2 _
  unfold k0_pay4
  refine (addf_apply _ _ _).trans ?_
  refine congrArg₂ (· + ·) (congrFun (shapeCast_self acc _) _) ((total_sum _ u w).trans ?_)
  refine Finset.sum_congr rfl fun r _ => Finset.sum_congr rfl fun k _ => ?_
  refine (Cert.Loss.vector_form _ _ _ (ix2 r k)).trans ?_
  rw [h0, h1, h3]

end Cert.KernelIdeal.Acc

end
-- ==== Proof.SumBridge.lean ====
import Idealize.ShloMosaic.Lib.ValueIdx
import Idealize.ShloMosaic.Lib.Pipeline.Value

/-!
  Re-indexing a sum over all entries.

  The two programs add up the same entries in different arrangements. One holds them as a three-axis array
  `[1024, 200, 48]` and adds over all of it at once; the other holds them flattened to `[1024, 9600]`
  (`9600 = 200 · 48`, the two trailing axes merged row-major) and adds lane by lane, row by row, and block of 64 rows
  by block. Over a commutative monoid all of these are one sum:

  * `flat` / `unflat` are the row-major bijection between the two index sets, and a reshape in either direction reads
    its operand through it (`reshape_to_flat_apply`, `reshape_to_cube_apply`);
  * `sum_cube_eq_flat`: a sum over the three-axis indices is the sum over the flat ones;
  * `sum_flat_eq_blocks`: a sum over the flat indices is the sum over 16 blocks, 64 rows in a block, 9600 lanes in a row.
-/

noncomputable section

namespace Cert.Loss

open Idealize.ShloMosaic Idealize.ShloMosaic.ValueIdx

/-- The entries as a three-axis array: batch, height, width. -/
abbrev Cube : Shape := ⟨3, ![1024, 200, 48]⟩
/-- The same entries with height and width merged. -/
abbrev Flat : Shape := ⟨2, ![1024, 9600]⟩

/-- Entry `(b, h, w)` sits at `(b, 48·h + w)` once the two trailing axes are merged. -/
def flat (i : Cube.Idx) : Flat.Idx :=
  ix2 (⟨(i 0).val, (i 0).isLt⟩ : Fin 1024)
    (⟨(i 1).val * 48 + (i 2).val, by
      have h1 : (i 1).val < 200 := (i 1).isLt
      have h2 : (i 2).val < 48 := (i 2).isLt
      omega⟩ : Fin 9600)

/-- Entry `(b, p)` of the merged array is `(b, p / 48, p % 48)` of the three-axis one. -/
def unflat (j : Flat.Idx) : Cube.Idx :=
  ix3 (⟨(j 0).val, (j 0).isLt⟩ : Fin 1024)
    (⟨(j 1).val / 48, by have h1 : (j 1).val < 9600 := (j 1).isLt; omega⟩ : Fin 200)
    (⟨(j 1).val % 48, by omega⟩ : Fin 48)

theorem flat_unflat (j : Flat.Idx) : flat (unflat j) = j := by
  funext a
  apply Fin.ext
  match a with
  | ⟨0, _⟩ => rfl
  | ⟨1, _⟩ => show (j 1).val / 48 * 48 + (j 1).val % 48 = (j 1).val; omega

theorem unflat_flat (i : Cube.Idx) : unflat (flat i) = i := by
  have h2 : (i 2).val < 48 := (i 2).isLt
  funext a
  apply Fin.ext
  match a with
  | ⟨0, _⟩ => rfl
  | ⟨1, _⟩ => show ((i 1).val * 48 + (i 2).val) / 48 = (i 1).val; omega
  | ⟨2, _⟩ => show ((i 1).val * 48 + (i 2).val) % 48 = (i 2).val; omega

/-- The row-major bijection between the two index sets. -/
def flatEquiv : Cube.Idx ≃ Flat.Idx where
  toFun := flat
  invFun := unflat
  left_inv := unflat_flat
  right_inv := flat_unflat

/-- A sum over the three-axis indices is the sum over the flat ones, each entry looked up at its three-axis place. -/
theorem sum_cube_eq_flat {M : Type*} [AddCommMonoid M] (g : Cube.Idx → M) :
    ∑ i : Cube.Idx, g i = ∑ j : Flat.Idx, g (unflat j) :=
  (Equiv.sum_comp flatEquiv.symm g).symm

variable {α : Type}

/-- Merging the two trailing axes: the merged array at `(b, p)` is the operand at `(b, p / 48, p % 48)`. -/
theorem reshape_to_flat_apply (x : Cube.Idx → α) (h : Cube.ShapeCasts Flat) (j : Flat.Idx) :
    shapeCast Flat x h j = x (unflat j) :=
  shapeCast_apply x h j (unflat j) (by
    rw [Shape.rowMajor_val_three, Shape.rowMajor_val_two]
    have h1 : (j 1).val < 9600 := (j 1).isLt
    show ((j 0).val * 200 + (j 1).val / 48) * 48 + (j 1).val % 48 = (j 0).val * 9600 + (j 1).val
    omega)

/-- Splitting the merged axis again: the three-axis array at `(b, h, w)` is the operand at `(b, 48·h + w)`. -/
theorem reshape_to_cube_apply (x : Flat.Idx → α) (h : Flat.ShapeCasts Cube) (i : Cube.Idx) :
    shapeCast Cube x h i = x (flat i) :=
  shapeCast_apply x h i (flat i) (by
    rw [Shape.rowMajor_val_two, Shape.rowMajor_val_three]
    show (i 0).val * 9600 + ((i 1).val * 48 + (i 2).val) = ((i 0).val * 200 + (i 1).val) * 48 + (i 2).val
    omega)

/-- Row `r` of block `t`, of the 1024 rows cut into 16 blocks of 64. -/
def blockRow (t : Fin 16) (r : Fin 64) : Fin 1024 := ⟨64 * t.val + r.val, by omega⟩

/-- The 1024 rows are the 16 blocks of 64 rows. -/
def blockRowEquiv : Fin 16 × Fin 64 ≃ Fin 1024 where
  toFun p := blockRow p.1 p.2
  invFun i := (⟨i.val / 64, by omega⟩, ⟨i.val % 64, by omega⟩)
  left_inv p := by
    obtain ⟨t, r⟩ := p
    apply Prod.ext
    · apply Fin.ext; show (64 * t.val + r.val) / 64 = t.val; omega
    · apply Fin.ext; show (64 * t.val + r.val) % 64 = r.val; omega
  right_inv i := by
    apply Fin.ext; show 64 * (i.val / 64) + i.val % 64 = i.val; omega

/-- A sum over all rows is the sum over the blocks of the sums over each block's rows. -/
theorem sum_rows_eq_blocks {M : Type*} [AddCommMonoid M] (f : Fin 1024 → M) :
    ∑ i : Fin 1024, f i = ∑ t : Fin 16, ∑ r : Fin 64, f (blockRow t r) := by
  rw [← Equiv.sum_comp blockRowEquiv f, Fintype.sum_prod_type]
  rfl

/-- A sum over the flat indices is the sum over 16 blocks, 64 rows in a block, 9600 lanes in a row. -/
theorem sum_flat_eq_blocks {M : Type*} [AddCommMonoid M] (g : Flat.Idx → M) :
    ∑ j : Flat.Idx, g j = ∑ t : Fin 16, ∑ r : Fin 64, ∑ k : Fin 9600, g (ix2 (blockRow t r) k) := by
  rw [sum_idx2 g, sum_rows_eq_blocks]

end Cert.Loss

end
-- ==== Proof.RefSide.lean ====
import proofs.«177766_j10488310137062_1_alg».proof.Proof.RefRead
import proofs.«177766_j10488310137062_1_alg».proof.Proof.Summand
import proofs.«177766_j10488310137062_1_alg».proof.Proof.SumBridge
import Idealize.ShloMosaic.Lib.ValueIdx
import Idealize.ShloMosaic.Lib.Pipeline.Value
import Idealize.ShloMosaic.PureOps.Ideal.Laws

/-!
  The reference's two totals, over the extended reals.

  The reference holds the sampled heights `A` and the sampled mask `M` as `[1024, 9600]` arrays, reshapes both to
  `[1024, 200, 48]`, and there forms, entry by entry, the smooth-L1 value of `A − value` weighted by `M · valid`; its
  loss total is `0 +` the sum of that over all entries, its weight total `0 +` the sum of `M · valid`. Read through the
  row-major bijection between the two index sets (an entry `(b, h, w)` of the three-axis arrays is entry
  `(b, 48·h + w)` of the flat ones) both are sums over the FLAT indices — the arrangement in which the kernel's
  windows see the same arrays.

  Every stage of the reference up to the four arrays `A`, `M`, `value`, `valid` stays closed: each lemma first replaces
  the stage it talks about by a variable and only then computes.
-/

noncomputable section

namespace Cert.ReferenceIdeal.RefValue

open Idealize.ShloMosaic Idealize.ShloMosaic.ValueIdx Cert.ReferenceIdeal Cert.ReferenceIdeal.ReadP Cert.Loss

variable (x0 : (⟨S1024x1x200x48, .f32⟩ : BufTy).Contents (Elt Ideal)) (x1 : (⟨S1024x3x200x48, .f32⟩ : BufTy).Contents (Elt Ideal))
  (x2 : (⟨S1024x1x200x48, .f32⟩ : BufTy).Contents (Elt Ideal))

/-- The sampled heights, reshaped to three axes, at `(b, h, w)`: the flat array at `(b, 48·h + w)`. -/
theorem heights_apply (i : S1024x200x48.Idx) :
    val_main_v29 (F := Ideal) x0 x1 i = val_main_v28 (F := Ideal) x0 x1 (flat i) := by
  unfold val_main_v29
  generalize val_main_v28 (F := Ideal) x0 x1 = y
  exact reshape_to_cube_apply y _ i

/-- The sampled mask, reshaped to three axes, at `(b, h, w)`: the flat array at `(b, 48·h + w)`. -/
theorem mask_apply (i : S1024x200x48.Idx) :
    val_main_v31 (F := Ideal) x1 x2 i = val_main_v30 (F := Ideal) x1 x2 (flat i) := by
  unfold val_main_v31
  generalize val_main_v30 (F := Ideal) x1 x2 = y
  exact reshape_to_cube_apply y _ i

/-- An entry's weight: the sampled mask times the validity flag. -/
theorem weight_apply (i : S1024x200x48.Idx) :
    val_main_v44 (F := Ideal) x1 x2 i
      = val_main_v30 (F := Ideal) x1 x2 (flat i) * val_main_v17 (F := Ideal) x1 i := by
  rw [val_main_v44_apply, mask_apply]
  generalize val_main_v30 (F := Ideal) x1 x2 (flat i) = a
  generalize val_main_v17 (F := Ideal) x1 i = b
  rfl

/-- An entry's contribution to the loss total: the summand of its sampled height, its target value and its weight. -/
theorem term_apply (i : S1024x200x48.Idx) :
    val_main_v45 (F := Ideal) x0 x1 x2 i
      = summand (val_main_v28 (F := Ideal) x0 x1 (flat i)) (val_main_v33 (F := Ideal) x1 i)
          (val_main_v30 (F := Ideal) x1 x2 (flat i) * val_main_v17 (F := Ideal) x1 i) := by
  rw [val_main_v45_apply, weight_apply, val_main_v43_apply, val_main_v37_apply, val_main_v40_apply, val_main_v42_apply,
    val_main_v39_apply, val_main_v35_apply, val_main_v34_apply, val_main_v36_apply, val_main_v38_apply, val_main_v41_apply,
    val_main_cst_apply, val_main_cst_8_apply, val_main_cst_9_apply, heights_apply]
  generalize val_main_v28 (F := Ideal) x0 x1 (flat i) = a
  generalize val_main_v33 (F := Ideal) x1 i = v
  generalize val_main_v30 (F := Ideal) x1 x2 (flat i) * val_main_v17 (F := Ideal) x1 i = w
  rfl

/-- The reference's loss total: the sum, over the flat indices, of every entry's summand. -/
theorem loss_total (i : S_.Idx) :
    val_main_v46 (F := Ideal) x0 x1 x2 i
      = ∑ j : Flat.Idx, summand (val_main_v28 (F := Ideal) x0 x1 j) (val_main_v33 (F := Ideal) x1 (unflat j))
          (val_main_v30 (F := Ideal) x1 x2 j * val_main_v17 (F := Ideal) x1 (unflat j)) := by
  rw [val_main_v46_apply, val_main_cst_10_apply]
  refine (congrArg₂ (· + ·) Ideal.ofBits_zero_f32 (sum_cube_eq_flat _)).trans ?_
  rw [zero_add]
  refine Finset.sum_congr rfl fun j _ => ?_
  rw [term_apply, flat_unflat]

/-- The reference's weight total: the sum, over the flat indices, of every entry's weight. -/
theorem weight_total (i : S_.Idx) :
    val_main_v47 (F := Ideal) x1 x2 i
      = ∑ j : Flat.Idx, val_main_v30 (F := Ideal) x1 x2 j * val_main_v17 (F := Ideal) x1 (unflat j) := by
  rw [val_main_v47_apply, val_main_cst_11_apply]
  refine (congrArg₂ (· + ·) Ideal.ofBits_zero_f32 (sum_cube_eq_flat _)).trans ?_
  rw [zero_add]
  refine Finset.sum_congr rfl fun j _ => ?_
  rw [weight_apply, flat_unflat]

end Cert.ReferenceIdeal.RefValue

end
-- ==== Proof.Bridge.lean ====
import proofs.«177766_j10488310137062_1_alg».proof.Proof.Accumulate
import proofs.«177766_j10488310137062_1_alg».proof.Proof.BlockSums
import proofs.«177766_j10488310137062_1_alg».proof.Proof.RefSide
import proofs.«177766_j10488310137062_1_alg».proof.Proof.SumBridge
import Idealize.ShloMosaic.Lib.ValueIdx
import Idealize.ShloMosaic.Lib.Pipeline.Value
import Idealize.ShloMosaic.PureOps.Ideal.Laws

/-!
  The kernel's two totals are the reference's.

  The kernel keeps two running totals in two `[1,1]` outputs: point 0 zeroes them and adds block 0's sums, every later
  point adds its block's sums to what the point before left (the running pair `chain`). A block is 64 rows of the three
  `[1024, 9600]` arrays the input windows read — the sampled heights, the target values (the value channel with its two
  trailing axes merged) and the weights (sampled mask times the merged validity flags) —, and a block's loss sum is the
  sum, over its 64 rows and 9600 lanes, of every entry's summand. So after the last of the 16 points the first total is
  the sum of the summand over ALL flat indices, and the second the sum of all weights: over the extended reals addition is
  commutative and associative, infinities included, so the grouping into lanes, rows and blocks does not matter, and no
  finiteness of the inputs is used. These are the reference's two totals read through the row-major bijection
  (`RefValue.loss_total`, `RefValue.weight_total`); both programs then form the same quotient.
-/

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.Loss

variable (m : (ℓ : Loc nD τ sig) → Buf (Elt Ideal) ℓ)

/-- Row `r` of the block at point `t` is row `64·t + r` of the array. -/
def rowOf (t : Fin cfg0.N) (r : Fin 64) : Fin 1024 :=
  ⟨64 * t.val + r.val, by have := t.isLt; have hN : cfg0.N = 16 := N_0; have := r.isLt; omega⟩

theorem chain_zero (c : Dev nD) (h : 0 < cfg0.N) :
    chain m c 0 h = (k0_pay4 (iblk m c 0 ⟨0, h⟩) (iblk m c 1 ⟨0, h⟩) (iblk m c 2 ⟨0, h⟩) (k0_pay1 (F := Ideal)),
      k0_pay5 (iblk m c 2 ⟨0, h⟩) (k0_pay2 (F := Ideal))) := rfl

theorem chain_succ (c : Dev nD) (n : ℕ) (h : n + 1 < cfg0.N) :
    chain m c (n + 1) h = (k0_pay4 (iblk m c 0 ⟨n + 1, h⟩) (iblk m c 1 ⟨n + 1, h⟩) (iblk m c 2 ⟨n + 1, h⟩) (chain m c n (Nat.lt_of_succ_lt h)).1,
      k0_pay5 (iblk m c 2 ⟨n + 1, h⟩) (chain m c n (Nat.lt_of_succ_lt h)).2) := rfl

/-- What point `t` adds to the two running totals: the sums over its block of 64 rows (zero past the grid). -/
def lossBlock (c : Dev nD) (t : ℕ) : EReal :=
  if h : t < cfg0.N then ∑ r : Fin 64, ∑ k : Fin 9600,
    summand ((iblk m c 0 ⟨t, h⟩ : Vec Ideal S64x9600 .f32) (ix2 r k)) ((iblk m c 1 ⟨t, h⟩ : Vec Ideal S64x9600 .f32) (ix2 r k))
      ((iblk m c 2 ⟨t, h⟩ : Vec Ideal S64x9600 .f32) (ix2 r k))
  else 0
def weightBlock (c : Dev nD) (t : ℕ) : EReal :=
  if h : t < cfg0.N then ∑ r : Fin 64, ∑ k : Fin 9600, (iblk m c 2 ⟨t, h⟩ : Vec Ideal S64x9600 .f32) (ix2 r k) else 0

/-- The running totals after point `n` are the sums of the blocks' contributions up to `n`: the first point starts from
    the zero it has just stored, every later point adds to what the point before left. -/
theorem chain_totals (c : Dev nD) : ∀ (n : ℕ) (h : n < cfg0.N) (y : S1x1.Idx),
    (chain m c n h).1 y = ∑ t ∈ Finset.range (n + 1), lossBlock m c t
      ∧ (chain m c n h).2 y = ∑ t ∈ Finset.range (n + 1), weightBlock m c t
  | 0, h, y => by
    rw [chain_zero]
    constructor
    · dsimp only
      rw [pay4_apply, pay1_apply, zero_add, Finset.sum_range_one]
      unfold lossBlock; rw [dif_pos h]
    · dsimp only
      rw [pay5_apply, pay2_apply, zero_add, Finset.sum_range_one]
      unfold weightBlock; rw [dif_pos h]
  | n + 1, h, y => by
    obtain ⟨ih1, ih2⟩ := chain_totals c n (Nat.lt_of_succ_lt h) y
    rw [chain_succ]
    constructor
    · dsimp only
      rw [pay4_apply, ih1, Finset.sum_range_succ _ (n + 1)]
      unfold lossBlock; rw [dif_pos h]
    · dsimp only
      rw [pay5_apply, ih2, Finset.sum_range_succ _ (n + 1)]
      unfold weightBlock; rw [dif_pos h]

section arrays

/- The three arrays the input windows read, as variables: `H` the sampled heights, `Vl` the target values, `W` the
   weights, each known only through the block reads (`hb0`, `hb1`, `hb2`: entry `(r, k)` of the block at point `t` is the
   array at row `64·t + r`, lane `k`). -/
variable (c : Dev nD) (H Vl W : Flat.Idx → EReal)
  (hb0 : ∀ (t : Fin cfg0.N) (r : Fin 64) (k : Fin 9600), (iblk m c 0 t : Vec Ideal S64x9600 .f32) (ix2 r k) = H (ix2 (rowOf t r) k))
  (hb1 : ∀ (t : Fin cfg0.N) (r : Fin 64) (k : Fin 9600), (iblk m c 1 t : Vec Ideal S64x9600 .f32) (ix2 r k) = Vl (ix2 (rowOf t r) k))
  (hb2 : ∀ (t : Fin cfg0.N) (r : Fin 64) (k : Fin 9600), (iblk m c 2 t : Vec Ideal S64x9600 .f32) (ix2 r k) = W (ix2 (rowOf t r) k))

include hb0 hb1 hb2 in
theorem lossBlock_eq (t : Fin 16) :
    lossBlock m c t.val
      = ∑ r : Fin 64, ∑ k : Fin 9600, summand (H (ix2 (blockRow t r) k)) (Vl (ix2 (blockRow t r) k)) (W (ix2 (blockRow t r) k)) := by
  have h : t.val < cfg0.N := lt_of_lt_of_eq t.isLt (show 16 = cfg0.N from N_0.symm)
  unfold lossBlock; rw [dif_pos h]
  refine Finset.sum_congr rfl fun r _ => Finset.sum_congr rfl fun k _ => ?_
  have hr : rowOf ⟨t.val, h⟩ r = blockRow t r := Fin.ext rfl
  rw [hb0, hb1, hb2, hr]

include hb2 in
theorem weightBlock_eq (t : Fin 16) :
    weightBlock m c t.val = ∑ r : Fin 64, ∑ k : Fin 9600, W (ix2 (blockRow t r) k) := by
  have h : t.val < cfg0.N := lt_of_lt_of_eq t.isLt (show 16 = cfg0.N from N_0.symm)
  unfold weightBlock; rw [dif_pos h]
  refine Finset.sum_congr rfl fun r _ => Finset.sum_congr rfl fun k _ => ?_
  have hr : rowOf ⟨t.val, h⟩ r = blockRow t r := Fin.ext rfl
  rw [hb2, hr]

include hb0 hb1 hb2 in
/-- After the last point the first running total is the sum, over all flat indices, of the summand of the three arrays, -/
theorem loss_sum (y : S1x1.Idx) :
    (chain m c 15 h15).1 y = ∑ j : Flat.Idx, summand (H j) (Vl j) (W j) := by
  rw [(chain_totals m c 15 h15 y).1]
  refine (Finset.sum_range (n := 16) _).trans ?_
  refine (Finset.sum_congr rfl fun t _ => lossBlock_eq m c H Vl W hb0 hb1 hb2 t).trans ?_
  exact (sum_flat_eq_blocks fun j => summand (H j) (Vl j) (W j)).symm

include hb2 in
/-- and the second the sum of the weights. -/
theorem weight_sum (y : S1x1.Idx) :
    (chain m c 15 h15).2 y = ∑ j : Flat.Idx, W j := by
  rw [(chain_totals m c 15 h15 y).2]
  refine (Finset.sum_range (n := 16) _).trans ?_
  refine (Finset.sum_congr rfl fun t _ => weightBlock_eq m c W hb2 t).trans ?_
  exact (sum_flat_eq_blocks W).symm

/- What the three arrays are, in the reference's stages of three argument arrays `x0`, `x1`, `x2`: the sampled heights;
   the value channel with its two trailing axes merged; the sampled mask times the merged validity flags. -/
variable (x0 : (⟨Cert.ReferenceIdeal.S1024x1x200x48, .f32⟩ : BufTy).Contents (Elt Ideal))
  (x1 : (⟨Cert.ReferenceIdeal.S1024x3x200x48, .f32⟩ : BufTy).Contents (Elt Ideal))
  (x2 : (⟨Cert.ReferenceIdeal.S1024x1x200x48, .f32⟩ : BufTy).Contents (Elt Ideal))
  (hc : Cube.ShapeCasts Flat)
  (hH : H = Cert.ReferenceIdeal.ReadP.val_main_v28 (F := Ideal) x0 x1)
  (hVl : Vl = shapeCast Flat (Cert.ReferenceIdeal.ReadP.val_main_v33 (F := Ideal) x1) hc)
  (hW : W = mulf (F := Ideal) (s := Flat) (φ := .f32) (Cert.ReferenceIdeal.ReadP.val_main_v30 (F := Ideal) x1 x2)
              (shapeCast Flat (Cert.ReferenceIdeal.ReadP.val_main_v17 (F := Ideal) x1) hc))

include hb0 hb1 hb2 hH hVl hW in
/-- The first total is the reference's loss total, -/
theorem loss_eq (y : S1x1.Idx) (i : Cert.ReferenceIdeal.S_.Idx) :
    (chain m c 15 h15).1 y = Cert.ReferenceIdeal.ReadP.val_main_v46 (F := Ideal) x0 x1 x2 i := by
  rw [loss_sum m c H Vl W hb0 hb1 hb2 y, Cert.ReferenceIdeal.RefValue.loss_total x0 x1 x2 i]
  subst hH hVl hW
  refine Finset.sum_congr rfl fun j _ => ?_
  rw [mulf_apply, reshape_to_flat_apply, reshape_to_flat_apply]

include hb2 hW in
/-- and the second its weight total. -/
theorem weight_eq (y : S1x1.Idx) (i : Cert.ReferenceIdeal.S_.Idx) :
    (chain m c 15 h15).2 y = Cert.ReferenceIdeal.ReadP.val_main_v47 (F := Ideal) x1 x2 i := by
  rw [weight_sum m c W hb2 y, Cert.ReferenceIdeal.RefValue.weight_total x1 x2 i]
  subst hW
  refine Finset.sum_congr rfl fun j _ => ?_
  rw [mulf_apply, reshape_to_flat_apply]

/-- A `[1,1]` array cast to a scalar reads its one entry. -/
theorem scalar_of_unit (x : Vec Ideal S1x1 .f32) (i : S_.Idx) :
    shapeCast S_ x shapeCasts_S1x1_S_ i = x (ix2 (0 : Fin 1) (0 : Fin 1)) :=
  shapeCast_apply x shapeCasts_S1x1_S_ i (ix2 (0 : Fin 1) (0 : Fin 1)) (by
    have h1 : (S1x1.rowMajor (ix2 (0 : Fin 1) (0 : Fin 1))).val < 1 := (S1x1.rowMajor _).isLt
    have h2 : (S_.rowMajor i).val < 1 := (S_.rowMajor i).isLt
    omega)

include hb0 hb1 hb2 hH hVl hW in
/-- The kernel's result — the first total divided by the second plus the constant — is the reference's. -/
theorem result_eq :
    Host.divf (F := Ideal) (shapeCast S_ (chain m c 15 h15).1 shapeCasts_S1x1_S_)
        (addf (F := Ideal) (shapeCast S_ (chain m c 15 h15).2 shapeCasts_S1x1_S_) (constant (F := Ideal) S_ .f32 0x358637BD#32))
      = Cert.ReferenceIdeal.ReadP.val_main_v49 (F := Ideal) x0 x1 x2 := by
  have e1 : shapeCast S_ (chain m c 15 h15).1 shapeCasts_S1x1_S_
      = Cert.ReferenceIdeal.ReadP.val_main_v46 (F := Ideal) x0 x1 x2 :=
    funext fun i => (scalar_of_unit _ i).trans (loss_eq m c H Vl W hb0 hb1 hb2 x0 x1 x2 hc hH hVl hW _ i)
  have e2 : shapeCast S_ (chain m c 15 h15).2 shapeCasts_S1x1_S_
      = Cert.ReferenceIdeal.ReadP.val_main_v47 (F := Ideal) x1 x2 :=
    funext fun i => (scalar_of_unit _ i).trans (weight_eq m c W hb2 x1 x2 hc hW _ i)
  rw [e1, e2]
  unfold Cert.ReferenceIdeal.ReadP.val_main_v49 Cert.ReferenceIdeal.ReadP.val_main_v48 Cert.ReferenceIdeal.ReadP.val_main_cst_12
  generalize Cert.ReferenceIdeal.ReadP.val_main_v46 (F := Ideal) x0 x1 x2 = a
  generalize Cert.ReferenceIdeal.ReadP.val_main_v47 (F := Ideal) x1 x2 = b
  rfl

end arrays

end Cert.KernelIdeal.Acc

end
-- ==== Proof.WindowArrays.lean ====
/-
  What the kernel's three input windows read.

  The pipeline's grid has sixteen points. At point `t` each of the three input windows stages the block of 64 rows
  `64·t … 64·t + 63` (all 9600 columns) of its [1024, 9600] array: the sampled heights, the value channel laid out
  flat, and the sampled mask multiplied by the validity mask. So entry `(r, k)` of a block is entry `(64·t + r, k)`
  of the array.

  The three arrays themselves are written by the host operations that precede the pipeline; those are, operation for
  operation, the opening stretch of the reference program, so each array is the corresponding stage of the reference
  applied to the same arguments.
-/
import proofs.«177766_j10488310137062_1_alg».proof.Proof.Gen.KernelIdeal.Frame
import proofs.«177766_j10488310137062_1_alg».proof.Proof.RefRead
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Acc

open Idealize.ShloMosaic Idealize.ShloMosaic.ValueIdx Cert.KernelIdeal Cert.KernelIdeal.Gen

variable {F : FTy → Type} [FloatOps F] (m : (ℓ : Loc nD τ sig) → Buf (Elt F) ℓ)

/-! ## A block is sixty-four consecutive rows of its array -/

/-- Row `r` of block `t` is row `64·t + r` of the array. -/
def row (t : Fin cfg0.N) (r : Fin 64) : Fin 1024 :=
  ⟨64 * t.val + r.val, by have := t.isLt; have hN : cfg0.N = 16 := N_0; have := r.isLt; omega⟩

/-- The block index of each input window at point `t` is `(t, 0)`: the grid's one axis walks down the rows, and a block
    spans every column. Decided over the sixteen points. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- Reading window 0's block at point `t` off ANY contents `A` of its array: entry `(r, k)` of the block is entry
    `(64·t + r, k)` of `A` — along each axis a block's coordinate is (block index) × (block extent) + (the coordinate inside
    the block), and the block index is `(t, 0)`. -/
theorem read0 (A : (⟨S1024x9600, .f32⟩ : BufTy).Contents (Elt F)) (t : Fin cfg0.N) (r : Fin 64) (k : Fin 9600) :
    (((cfg0.win 0).blk t).view.read (Elt F) A : Vec F S64x9600 .f32) (ix2 r k) = A (ix2 (row t r) k) := by
  have hi := idx0 t
  rw [View.read_apply]
  show A _ = A _
  congr 1
  funext a
  apply Fin.ext
  match a with
  | ⟨0, _⟩ => show win0_0.index t 0 * 64 + 1 * r.val = 64 * t.val + r.val; rw [hi.1]; omega
  | ⟨1, _⟩ => show win0_0.index t 1 * 9600 + 1 * k.val = k.val; rw [hi.2]; omega

/-- The heights window: entry `(r, k)` of block `t` is entry `(64·t + r, k)` of the sampled heights. -/
theorem iblk0_apply (c : Dev nD) (t : Fin cfg0.N) (r : Fin 64) (k : Fin 9600) :
    (iblk m c 0 t : Vec F S64x9600 .f32) (ix2 r k)
      = (V m c main_v28 : S1024x9600.Idx → Elt F .f32) (ix2 (row t r) k) :=
  read0 (V m c main_v28) t r k

/-- Reading window 1's block at point `t` off ANY contents `A` of its array: entry `(r, k)` of the block is entry
    `(64·t + r, k)` of `A` — along each axis a block's coordinate is (block index) × (block extent) + (the coordinate inside
    the block), and the block index is `(t, 0)`. -/
theorem read1 (A : (⟨S1024x9600, .f32⟩ : BufTy).Contents (Elt F)) (t : Fin cfg0.N) (r : Fin 64) (k : Fin 9600) :
    (((cfg0.win 1).blk t).view.read (Elt F) A : Vec F S64x9600 .f32) (ix2 r k) = A (ix2 (row t r) k) := by
  have hi := idx1 t
  rw [View.read_apply]
  show A _ = A _
  congr 1
  funext a
  apply Fin.ext
  match a with
  | ⟨0, _⟩ => show win0_1.index t 0 * 64 + 1 * r.val = 64 * t.val + r.val; rw [hi.1]; omega
  | ⟨1, _⟩ => show win0_1.index t 1 * 9600 + 1 * k.val = k.val; rw [hi.2]; omega

/-- The values window: entry `(r, k)` of block `t` is entry `(64·t + r, k)` of the flat value channel. -/
theorem iblk1_apply (c : Dev nD) (t : Fin cfg0.N) (r : Fin 64) (k : Fin 9600) :
    (iblk m c 1 t : Vec F S64x9600 .f32) (ix2 r k)
      = (V m c main_v32 : S1024x9600.Idx → Elt F .f32) (ix2 (row t r) k) :=
  read1 (V m c main_v32) t r k

/-- Reading window 2's block at point `t` off ANY contents `A` of its array: entry `(r, k)` of the block is entry
    `(64·t + r, k)` of `A` — along each axis a block's coordinate is (block index) × (block extent) + (the coordinate inside
    the block), and the block index is `(t, 0)`. -/
theorem read2 (A : (⟨S1024x9600, .f32⟩ : BufTy).Contents (Elt F)) (t : Fin cfg0.N) (r : Fin 64) (k : Fin 9600) :
    (((cfg0.win 2).blk t).view.read (Elt F) A : Vec F S64x9600 .f32) (ix2 r k) = A (ix2 (row t r) k) := by
  have hi := idx2 t
  rw [View.read_apply]
  show A _ = A _
  congr 1
  funext a
  apply Fin.ext
  match a with
  | ⟨0, _⟩ => show win0_2.index t 0 * 64 + 1 * r.val = 64 * t.val + r.val; rw [hi.1]; omega
  | ⟨1, _⟩ => show win0_2.index t 1 * 9600 + 1 * k.val = k.val; rw [hi.2]; omega

/-- The weights window: entry `(r, k)` of block `t` is entry `(64·t + r, k)` of the sampled mask times the validity mask. -/
theorem iblk2_apply (c : Dev nD) (t : Fin cfg0.N) (r : Fin 64) (k : Fin 9600) :
    (iblk m c 2 t : Vec F S64x9600 .f32) (ix2 r k)
      = (V m c main_v34 : S1024x9600.Idx → Elt F .f32) (ix2 (row t r) k) :=
  read2 (V m c main_v34) t r k

/-! ## The three arrays are stages of the reference

Each array is what the host operations before the pipeline leave in its buffer. Unfolding that straight line gives the
operations' composed function of the three arguments; it is, operation for operation, the composed function that the
reference's stage definitions spell out, so the two agree by unfolding alone. The module-local functions' operations
carry identity transports between a value's type and its buffer's type; they are cleared on the list of operations,
where every function is still a small term, before the line is composed. -/

open Idealize.ShloMosaic.StableHlo in
set_option maxRecDepth 65536 in
set_option maxHeartbeats 4000000 in
/-- The heights array is the reference's sampled heights: the height field gathered along the flat sample index
    (clipped row × 48 + clipped column), out-of-range samples replaced by a NaN. -/
theorem V_heights (c : Dev nD) : (V m c main_v28 : S1024x9600.Idx → Elt F .f32)
      = Cert.ReferenceIdeal.ReadP.val_main_v28 (F := F) (m ((c.tc : Thread nD τ).loc main_arg0))
          (m ((c.tc : Thread nD τ).loc main_arg1)) := by
  dsimp only [V, V0]
  simp only [hostOps0, hostOps0_1, hostOps0_2, hostOps0_3, hostOps0_4, hostOps0_5, hostOps0_6, hostOps0_7, List.flatten_cons, List.flatten_nil, List.append_nil, List.cons_append, List.nil_append, TRef.nullary, TRef.unary, TRef.binary, TRef.ternary, TRef.reshape, TRef.toBuf, TRef.ofBuf, cast_eq]
  after_results_simp
  rfl

open Idealize.ShloMosaic.StableHlo in
set_option maxRecDepth 65536 in
set_option maxHeartbeats 4000000 in
/-- The values array is the reference's value channel (the third channel of the second argument), laid out flat. -/
theorem V_values (c : Dev nD) : (V m c main_v32 : S1024x9600.Idx → Elt F .f32)
      = shapeCast S1024x9600 (Cert.ReferenceIdeal.ReadP.val_main_v33 (F := F) (m ((c.tc : Thread nD τ).loc main_arg1)))
          shapeCasts_S1024x200x48_S1024x9600 := by
  dsimp only [V, V0]
  simp only [hostOps0, hostOps0_1, hostOps0_2, hostOps0_3, hostOps0_4, hostOps0_5, hostOps0_6, hostOps0_7, List.flatten_cons, List.flatten_nil, List.append_nil, List.cons_append, List.nil_append, TRef.nullary, TRef.unary, TRef.binary, TRef.ternary, TRef.reshape, TRef.toBuf, TRef.ofBuf, cast_eq]
  after_results_simp
  rfl

open Idealize.ShloMosaic.StableHlo in
set_option maxRecDepth 65536 in
set_option maxHeartbeats 4000000 in
/-- The weights array is the reference's sampled mask times its validity mask, the latter laid out flat. -/
theorem V_weights (c : Dev nD) : (V m c main_v34 : S1024x9600.Idx → Elt F .f32)
      = mulf (Cert.ReferenceIdeal.ReadP.val_main_v30 (F := F) (m ((c.tc : Thread nD τ).loc main_arg1))
                (m ((c.tc : Thread nD τ).loc main_arg2)))
          (shapeCast S1024x9600 (Cert.ReferenceIdeal.ReadP.val_main_v17 (F := F) (m ((c.tc : Thread nD τ).loc main_arg1)))
            shapeCasts_S1024x200x48_S1024x9600) := by
  dsimp only [V, V0]
  simp only [hostOps0, hostOps0_1, hostOps0_2, hostOps0_3, hostOps0_4, hostOps0_5, hostOps0_6, hostOps0_7, List.flatten_cons, List.flatten_nil, List.append_nil, List.cons_append, List.nil_append, TRef.nullary, TRef.unary, TRef.binary, TRef.ternary, TRef.reshape, TRef.toBuf, TRef.ofBuf, cast_eq]
  after_results_simp
  rfl

end Cert.KernelIdeal.Acc

end
-- ==== Proof.RefRunValue.lean ====
import proofs.«177766_j10488310137062_1_alg».proof.Proof.RefRun
import proofs.«177766_j10488310137062_1_alg».proof.Proof.RefRead

/-!
  The reference's run, with its result stated by stages.

  The run reads the result buffer back as one composed term of the three argument arrays; the stage functions name the
  same composition one operation at a time (the last stage is the quotient of the two totals). The two are the same term,
  by unfolding; so every weakly fair execution of the reference ends with its result at the last stage of its arguments,
  the arguments unchanged.
-/

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 65536 in
set_option maxHeartbeats 4000000 in
/-- The run's composed term is the last stage of the argument arrays. -/
theorem result_is_last_stage (m : (ℓ : Loc nD τ sig) → Buf (Elt F) ℓ) (c : Dev nD) :
    Cert.ReferenceIdeal.ValueP.res_main_v49 m c
      = Cert.ReferenceIdeal.ReadP.val_main_v49 (F := F) (m ((c.tc : Thread nD τ).loc main_arg0)) (m ((c.tc : Thread nD τ).loc main_arg1))
          (m ((c.tc : Thread nD τ).loc main_arg2)) := by
  unfold Cert.ReferenceIdeal.ValueP.res_main_v49; rfl

/-- Every weakly fair execution of the reference terminates with its result at the last stage of the argument arrays and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
        = Cert.ReferenceIdeal.ReadP.val_main_v49 (F := F) (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_is_last_stage m c), (h c).2⟩)
    (Cert.ReferenceIdeal.ValueP.run m ρ)

end Cert.ReferenceIdeal.RefValue

end
-- ==== Proof.lean ====
/-
  The certificate of a masked smooth-L1 consistency loss: a Pallas reduction kernel against its jnp reference.

  Both programs start with the same host operations: from the `[1024, 3, 200, 48]` argument they cut the row, column and
  value channels, truncate the first two to integers, mark the entries whose position is inside the `200 × 48` map
  (`valid`), clip, form the flat position `48·y + x`, and gather the heightmap and the mask at those positions (two
  `take_along_axis`). Writing `A` for the sampled heights, `M` for the sampled mask and `v` for the value channel, both
  then compute

      ( Σ huber(A − v) · (M · valid) )  /  ( Σ M · valid  +  1e-6 ),      huber d = (½·d)·d if |d| < 1, |d| − ½ otherwise,

  the sums over all `1024 · 200 · 48` entries. The reference reshapes `A` and `M` to three axes and takes each sum in one
  `reduce`; the kernel keeps everything flat as `[1024, 9600]`, and a grid of 16 points each adds the sums of its block of
  64 rows (a lane sum, then a sublane sum) into two `[1,1]` accumulators that the first point zeroes; the quotient is formed
  on the host after the kernel. Over the extended reals the same constants `1`, `½`, `1e-6` (the same binary floats on both
  sides) denote the same numbers, addition is commutative and associative including at the infinities, and the reshape is
  a bijection of index sets: the two results are equal, whatever the inputs (finiteness of the inputs is not used).

  The modules: `Summand` (the pointwise part), `SumBridge` (the bijection and the regrouping of a sum into blocks, rows and
  lanes), `BlockSums` (the kernel body's two stores as sums), `Accumulate` (the running totals across the grid, the
  result array, the host operations after the kernel), `WindowArrays` (what the three input windows read), `RefSide` (the
  reference's two totals over the flat indices), `Bridge` (the totals agree), and here the five claims.
-/
import proofs.«177766_j10488310137062_1_alg».proof.Defs
import proofs.«177766_j10488310137062_1_alg».proof.Proof.Gen.Kernel
import proofs.«177766_j10488310137062_1_alg».proof.Proof.Gen.Kernel.Frame
import proofs.«177766_j10488310137062_1_alg».proof.Proof.Gen.KernelIdeal
import proofs.«177766_j10488310137062_1_alg».proof.Proof.Gen.KernelIdeal.Frame
import proofs.«177766_j10488310137062_1_alg».proof.Proof.Gen.ReferenceIdeal
import proofs.«177766_j10488310137062_1_alg».proof.Proof.Gen.Pre_finite_inputs
import proofs.«177766_j10488310137062_1_alg».proof.Proof.Bridge
import proofs.«177766_j10488310137062_1_alg».proof.Proof.WindowArrays
import proofs.«177766_j10488310137062_1_alg».proof.Proof.RefRunValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments alone: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote nothing in this kernel. -/
theorem preserves : Cert.preserves_Kernel_KernelIdeal := trivial

/-- At the ideal instance the kernel's result — its first accumulated total over its second plus the constant — and the
    reference's quotient of its two totals are the same extended real, from arguments that agree. -/
theorem algebraic : Cert.algebraic_KernelIdeal_ReferenceIdeal := by
  intro m ρ m' ρ' _ hagree
  refine ⟨_, Cert.KernelIdeal.Acc.run (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  exact (Cert.KernelIdeal.Acc.result_eq m c
    (Cert.KernelIdeal.Gen.V m c Cert.KernelIdeal.main_v28) (Cert.KernelIdeal.Gen.V m c Cert.KernelIdeal.main_v32)
    (Cert.KernelIdeal.Gen.V m c Cert.KernelIdeal.main_v34)
    (Cert.KernelIdeal.Acc.iblk0_apply m c) (Cert.KernelIdeal.Acc.iblk1_apply m c) (Cert.KernelIdeal.Acc.iblk2_apply m c)
    _ _ _ _ (Cert.KernelIdeal.Acc.V_heights m c) (Cert.KernelIdeal.Acc.V_values m c) (Cert.KernelIdeal.Acc.V_weights m c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
